-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16777216 : Shape := ⟨1, ![16777216]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_arg4 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S16777216 .f32) (main_arg3 : FVec F S4096x4096 .f32) (main_arg4 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x4096 : Shape := ⟨2, ![4096, 4096]⟩
abbrev S16777216 : Shape := ⟨1, ![16777216]⟩
abbrev S_ : Shape := ⟨0, ![]⟩
abbrev S16x128 : Shape := ⟨2, ![16, 128]⟩
abbrev S128x4096 : Shape := ⟨2, ![128, 4096]⟩
abbrev S8x128 : Shape := ⟨2, ![8, 128]⟩
abbrev S1x128x4096 : Shape := ⟨3, ![1, 128, 4096]⟩
abbrev S1 : Shape := ⟨1, ![1]⟩
abbrev S1x1x1 : Shape := ⟨3, ![1, 1, 1]⟩
abbrev S1x1 : Shape := ⟨2, ![1, 1]⟩
abbrev S512x4096 : Shape := ⟨2, ![512, 4096]⟩
abbrev S1x512x4096 : Shape := ⟨3, ![1, 512, 4096]⟩

abbrev nBuf : Space → Nat
  | .hbm => 45
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16777216, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x4096, .bf16⟩
  | .hbm, ⟨25, _⟩ => ⟨S16x128, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S16x128, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S8x128, .f32⟩
  | .local _ .vmem, ⟨4, _⟩ => ⟨S8x128, .f32⟩
  | .local _ .vmem, ⟨5, _⟩ => ⟨S512x4096, .f32⟩
  | .local _ .vmem, ⟨6, _⟩ => ⟨S512x4096, .f32⟩
  | .local _ .vmem, ⟨7, _⟩ => ⟨S8x128, .f32⟩
  | .local _ .vmem, ⟨8, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_cst_1 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S128x4096_S1x128x4096 : S128x4096.ShapeCasts S1x128x4096
  reduces_S1x128x4096_S1 : S1x128x4096.Reduces [1, 2] S1
  shapeCasts_S1_S1x1x1 : S1.ShapeCasts S1x1x1
  inpos_S1x1x1_p0_0_0 : ∀ a, (![0, 0, 0] : Fin 3 → Nat) a < S1x1x1.size a
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S16x128.size a
  hwx1_1 : ∀ i : grid1.Coords, EltTy.bits .f32 = 32 ∨ (Rect.block (s := S16x128) S8x128.size (cc1_transform_1 i) (hinb1_1 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S16777216 : Shape := ⟨1, ![16777216]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16777216, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelRun.lean ====
/-
  The idealized kernel's run, read for its RESULTS.  @main is five stretches of host operations, the first
  pipelined kernel, one more stretch, the second pipelined kernel, and a last stretch.  The contents of every
  buffer at each boundary are a fold from the launch memory (a stretch applies its operations; a kernel region
  leaves its arrays at what its write-backs leave and every other buffer as it was).  Every weakly fair execution
  terminates with every unscoped buffer at the last boundary's contents; read at the three result buffers and the
  five arguments this is the statement below.  What those contents ARE, as numbers, is the business of the other
  modules.
-/
import proofs.«166908_j73950746902747_2_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the three results at the last
    boundary's contents and the five argument arrays as launched. -/
theorem run : θ_run defs (onTc (τ := τ) (main (F := F))) ⟨m, fun _ => 0, ρ⟩ (fun r => ∀ c : Dev nD,
      r.2.mem ((c.tc : Thread nD τ).loc main_v22) = W9 m ρ c (Proc.devRef .tc main_v22)
      ∧ r.2.mem ((c.tc : Thread nD τ).loc main_v19) = W9 m ρ c (Proc.devRef .tc main_v19)
      ∧ r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v22 (by decide)),
       h c _ (mem_uc main_v19 (by decide)),
       h c _ (mem_uc main_v20 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Run

end
-- ==== Proof.ReadBack.lean ====
import proofs.«166908_j73950746902747_2_alg».proof.Proof.Gen.KernelIdeal.Frame
import Idealize.ShloMosaic.Lib.StableHlo.Run

noncomputable section

namespace Cert.KernelIdeal.ReadBack

open Cert.KernelIdeal Cert.KernelIdeal.Gen Idealize.ShloMosaic Idealize.ShloMosaic.TcCoe Idealize.SL.Sem Idealize.ShloMosaic.StableHlo

variable {F : FTy → Type} [FloatOps F]

/-- The trace of a square matrix: the sum over all (i, j) of H i j where i + 0 = j, and of 0 elsewhere. -/
def ktrace (H : (⟨S4096x4096, .f32⟩ : BufTy).Contents (Elt F)) : (⟨S_, .f32⟩ : BufTy).Contents (Elt F) :=
  Host.reduceAdd (select (cmpi .eq (addi (iotaInDim S4096x4096 32 0) (broadcastInDim S4096x4096 ![] bcast_S_S4096x4096 (constantI S_ 32 0#32))) (iotaInDim S4096x4096 32 1)) H (broadcastInDim S4096x4096 ![] bcast_S_S4096x4096 (constant (F := F) S_ .f32 0x00000000#32))) (constant (F := F) S_ .f32 0x00000000#32) reducesTo_S4096x4096_S_d0_1 h_S_

/-- The scale factor: 2⁻¹² / tr H where tr H > 0, and 1 otherwise. -/
def kfactor (H : (⟨S4096x4096, .f32⟩ : BufTy).Contents (Elt F)) : (⟨S_, .f32⟩ : BufTy).Contents (Elt F) :=
  select (cmpf .ogt (ktrace H) (constant (F := F) S_ .f32 0x00000000#32)) (Host.divf (constant (F := F) S_ .f32 0x39800000#32) (ktrace H)) (constant (F := F) S_ .f32 0x3F800000#32)

/-- The sum of the entries (0, 0) and (8, 0) of a 16 × 128 array. -/
def corner (A : (⟨S16x128, .f32⟩ : BufTy).Contents (Elt F)) : (⟨S_, .f32⟩ : BufTy).Contents (Elt F) :=
  addf (shapeCast S_ (extractStridedSlice S1x1 ![0, 0] A slices_S16x128_S1x1_0_0) shapeCasts_S1x1_S_) (shapeCast S_ (extractStridedSlice S1x1 ![8, 0] A slices_S16x128_S1x1_8_0) shapeCasts_S1x1_S_)

section Stretches

variable (W : Valuation τ sig (Elt F))

/-! ## One stretch of host operations at a time, from any contents W -/

/-- The five stretches before the first region, in order, from W. -/
abbrev head (W : Valuation τ sig (Elt F)) : Valuation τ sig (Elt F) :=
  StableHlo.after hostOps0_4 (StableHlo.after hostOps0_3 (StableHlo.after hostOps0_2 (StableHlo.after hostOps0_1 (StableHlo.after hostOps0 W))))

/-- Before the first region: the difference of arguments 1 and 0. -/
theorem head_v0 : head W (Proc.devRef .tc main_v0)
    = subf (W (Proc.devRef .tc main_arg1)) (W (Proc.devRef .tc main_arg0)) := by
  dsimp only [head, hostOps0, hostOps0_1, hostOps0_2, hostOps0_3, hostOps0_4]
  after_results

/-- Before the first region: argument 4 narrowed to the 16-bit format. -/
theorem head_v5 : head W (Proc.devRef .tc main_v5)
    = truncf .bf16 (W (Proc.devRef .tc main_arg4)) bitsLt_bf16_f32 := by
  dsimp only [head, hostOps0, hostOps0_1, hostOps0_2, hostOps0_3, hostOps0_4]
  after_results

/-- Before the first region: the scale factor of argument 4 (the third operand of the select passes through the
    identity conversion, which changes nothing). -/
theorem head_v4 : head W (Proc.devRef .tc main_v4) = kfactor (W (Proc.devRef .tc main_arg4)) := by
  dsimp only [head, hostOps0, hostOps0_1, hostOps0_2, hostOps0_3, hostOps0_4]
  after_results
  rfl

/-- Before the first region: argument 3 is not written. -/
theorem head_arg3 : head W (Proc.devRef .tc main_arg3) = W (Proc.devRef .tc main_arg3) := by
  dsimp only [head, hostOps0, hostOps0_1, hostOps0_2, hostOps0_3, hostOps0_4]
  after_results

/-- Between the regions: the corner sum of the first region's output. -/
theorem mid_v11 : StableHlo.after hostOps1 W (Proc.devRef .tc main_v11) = corner (W (Proc.devRef .tc main_v6)) := by
  dsimp only [hostOps1]
  after_results
  rfl

/-- Between the regions: the scale factor is not written. -/
theorem mid_v4 : StableHlo.after hostOps1 W (Proc.devRef .tc main_v4) = W (Proc.devRef .tc main_v4) := by
  dsimp only [hostOps1]
  after_results

/-- Between the regions: argument 3 is not written. -/
theorem mid_arg3 : StableHlo.after hostOps1 W (Proc.devRef .tc main_arg3) = W (Proc.devRef .tc main_arg3) := by
  dsimp only [hostOps1]
  after_results

/-- After the second region, the second result: (v11 · v4) / 1. -/
theorem tail_v19 : StableHlo.after hostOps2 W (Proc.devRef .tc main_v19)
    = Host.divf (mulf (W (Proc.devRef .tc main_v11)) (W (Proc.devRef .tc main_v4))) (constant (F := F) S_ .f32 0x3F800000#32) := by
  dsimp only [hostOps2]
  after_results

/-- After the second region, the third result: the corner sum of the second region's output over the constant. -/
theorem tail_v20 : StableHlo.after hostOps2 W (Proc.devRef .tc main_v20)
    = Host.divf (corner (W (Proc.devRef .tc main_v12))) (constant (F := F) S_ .f32 0xCB317218#32) := by
  dsimp only [hostOps2]
  after_results
  rfl

/-- After the second region, the first result: 1 · (second result) + (third result). -/
theorem tail_v22 : StableHlo.after hostOps2 W (Proc.devRef .tc main_v22)
    = addf (mulf (constant (F := F) S_ .f32 0x3F800000#32) (StableHlo.after hostOps2 W (Proc.devRef .tc main_v19)))
        (StableHlo.after hostOps2 W (Proc.devRef .tc main_v20)) := by
  rw [tail_v19, tail_v20]
  dsimp only [hostOps2]
  after_results
  rfl

end Stretches

/-! ## The program's run: the stretches joined across the two regions -/

variable (m : (ℓ : Loc nD τ sig) → Buf (Elt F) ℓ) (ρ : Dev nD → PrngReg)

/-- At the first region's entry, the first window's array is argument 1 minus argument 0. -/
theorem entry_v0 (c : Dev nD) : V5 m ρ c main_v0
    = subf (m ((c.tc : Thread nD τ).loc main_arg1)) (m ((c.tc : Thread nD τ).loc main_arg0)) :=
  head_v0 (W0 m ρ c)

/-- At the first region's entry, the second window's array is argument 4 narrowed to the 16-bit format. -/
theorem entry_v5 (c : Dev nD) : V5 m ρ c main_v5
    = truncf .bf16 (m ((c.tc : Thread nD τ).loc main_arg4)) bitsLt_bf16_f32 :=
  head_v5 (W0 m ρ c)

/-- At the second region's entry, its input array is argument 3 as launched: neither a host operation nor the
    first region writes it. -/
theorem entry_arg3 (c : Dev nD) : V7 m ρ c main_arg3 = m ((c.tc : Thread nD τ).loc main_arg3) :=
  (mid_arg3 (W6 m ρ c)).trans ((W6_of_ne m ρ c main_arg3 (by decide)).trans (head_arg3 (W0 m ρ c)))

/-- At the second region's exit, the corner sum of the first region's output is still where the stretch between
    the regions put it. -/
theorem exit_v11 (c : Dev nD) : W8 m ρ c (Proc.devRef .tc main_v11) = corner ((dat0 (V5 m ρ) c).arrAt 2 cfg0.N) :=
  (W8_of_ne m ρ c main_v11 (by decide)).trans ((mid_v11 (W6 m ρ c)).trans (congrArg corner (W6_arr m ρ c 2)))

/-- At the second region's exit, the scale factor is still the one computed before the first region. -/
theorem exit_v4 (c : Dev nD) : W8 m ρ c (Proc.devRef .tc main_v4) = kfactor (m ((c.tc : Thread nD τ).loc main_arg4)) :=
  (W8_of_ne m ρ c main_v4 (by decide)).trans ((mid_v4 (W6 m ρ c)).trans
    ((W6_of_ne m ρ c main_v4 (by decide)).trans (head_v4 (W0 m ρ c))))

/-- The second result: the corner sum of the first region's output, times the scale factor, over 1. -/
theorem res_v19 (c : Dev nD) : W9 m ρ c (Proc.devRef .tc main_v19)
    = Host.divf (mulf (corner ((dat0 (V5 m ρ) c).arrAt 2 cfg0.N)) (kfactor (m ((c.tc : Thread nD τ).loc main_arg4)))) (constant (F := F) S_ .f32 0x3F800000#32) :=
  (tail_v19 (W8 m ρ c)).trans (by rw [exit_v11 m ρ c, exit_v4 m ρ c])

/-- The third result: the corner sum of the second region's output over the constant. -/
theorem res_v20 (c : Dev nD) : W9 m ρ c (Proc.devRef .tc main_v20)
    = Host.divf (corner ((dat1 (V7 m ρ) c).arrAt 1 cfg1.N)) (constant (F := F) S_ .f32 0xCB317218#32) :=
  (tail_v20 (W8 m ρ c)).trans (by rw [show W8 m ρ c (Proc.devRef .tc main_v12) = (dat1 (V7 m ρ) c).arrAt 1 cfg1.N from W8_arr m ρ c 1])

/-- The first result: 1 · (second result) + (third result). -/
theorem res_v22 (c : Dev nD) : W9 m ρ c (Proc.devRef .tc main_v22)
    = addf (mulf (constant (F := F) S_ .f32 0x3F800000#32) (W9 m ρ c (Proc.devRef .tc main_v19))) (W9 m ρ c (Proc.devRef .tc main_v20)) :=
  tail_v22 (W8 m ρ c)

end Cert.KernelIdeal.ReadBack

end
-- ==== Proof.RefRun.lean ====
import proofs.«166908_j73950746902747_2_alg».proof.Proof.Gen.ReferenceIdeal
import Idealize.ShloMosaic.Lib.StableHlo.Run

/-!
# The reference program's run

The reference is a straight line of host tensor operations: the difference of two matrices, the
trace of a third (a masked sum: the diagonal selected by comparing the row and column iotas), that
third matrix divided by its trace and scaled when the trace is positive, the quadratic form
`Σ ((D · Hn) ∘ D)` of the difference `D` in the normalised matrix `Hn`, the sum of the logarithms of
a fourth matrix divided by a constant, and the sum of the two scalars. Its two calls run their
callee's operations in place, so the whole program is one list of operations, and its run is the
fold of that list over the launch contents: each result buffer ends at the composed operation
term of the argument arrays, and the arguments are unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 34 operations, in order: the subtraction; the twelve of the trace (two iotas, the
    zero offset and its broadcast, their sum, the comparison with the column iota, the float zero and
    its broadcast, the select of the diagonal, the sum's initial value, the sum); the seven that
    normalise the matrix by its trace; the select on the trace's sign; the matrix product, the
    elementwise product, its sum and the division by one; the logarithm, its sum and the division by
    the constant; the product by one and the final sum. -/
abbrev ops : List (HloOp τ sig (Elt F)) :=
  [ binary main_arg1 main_arg0 main_v0 (subf : (⟨S4096x4096, .f32⟩ : BufTy).Contents (Elt F) → (⟨S4096x4096, .f32⟩ : BufTy).Contents (Elt F) → (⟨S4096x4096, .f32⟩ : BufTy).Contents (Elt F)),
    TRef.nullary main_call0.v0 (iotaInDim S4096x4096 32 0),
    TRef.nullary main_call0.v1 (iotaInDim S4096x4096 32 1),
    TRef.nullary main_call0.c (constantI S_ 32 0#32),
    TRef.unary main_call0.c main_call0.v2 (broadcastInDim S4096x4096 ![] bcast_S_S4096x4096),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4096x4096 ![] bcast_S_S4096x4096),
    TRef.ternary main_call0.v4 (.of main_arg4) main_call0.v5 main_call0.call0.v0 select,
    TRef.nullary main_call0.cst_0 (constant S_ .f32 0x00000000#32),
    TRef.binary main_call0.call0.v0 main_call0.cst_0 main_call0.v7 (fun x v => Host.reduceAdd x v reducesTo_S4096x4096_S_d0_1 h_S_),
    nullary main_cst (constant S_ .f32 0x00000000#32),
    binary main_v1 main_cst main_v2 (cmpf .ogt : (⟨S_, .f32⟩ : BufTy).Contents (Elt F) → (⟨S_, .f32⟩ : BufTy).Contents (Elt F) → (⟨S_, .i1⟩ : BufTy).Contents (Elt F)),
    unary main_v1 main_v3 (broadcastInDim S4096x4096 ![] bcast_S_S4096x4096 : (⟨S_, .f32⟩ : BufTy).Contents (Elt F) → (⟨S4096x4096, .f32⟩ : BufTy).Contents (Elt F)),
    binary main_arg4 main_v3 main_v4 (Host.divf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x39800000#32),
    unary main_cst_0 main_v5 (broadcastInDim S4096x4096 ![] bcast_S_S4096x4096 : (⟨S_, .f32⟩ : BufTy).Contents (Elt F) → (⟨S4096x4096, .f32⟩ : BufTy).Contents (Elt F)),
    binary main_v4 main_v5 main_v6 (mulf : (⟨S4096x4096, .f32⟩ : BufTy).Contents (Elt F) → (⟨S4096x4096, .f32⟩ : BufTy).Contents (Elt F) → (⟨S4096x4096, .f32⟩ : BufTy).Contents (Elt F)),
    TRef.ternary (.of main_v2) (.of main_v6) (.of main_arg4) main_call1.v0 (fun p a b => select (broadcastInDim S4096x4096 ![] bcast_S_S4096x4096 p) a b),
    binary main_v0 main_v7 main_v8 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v8 main_v0 main_v9 (mulf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    binary main_v9 main_cst_1 main_v10 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_2 (constant S_ .f32 0x3F800000#32),
    binary main_v10 main_cst_2 main_v11 (Host.divf : (⟨S_, .f32⟩ : BufTy).Contents (Elt F) → (⟨S_, .f32⟩ : BufTy).Contents (Elt F) → (⟨S_, .f32⟩ : BufTy).Contents (Elt F)),
    unary main_arg3 main_v12 (Host.log : (⟨S4096x4096, .f32⟩ : BufTy).Contents (Elt F) → (⟨S4096x4096, .f32⟩ : BufTy).Contents (Elt F)),
    nullary main_cst_3 (constant S_ .f32 0x00000000#32),
    binary main_v12 main_cst_3 main_v13 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_4 (constant S_ .f32 0xCB317218#32),
    binary main_v13 main_cst_4 main_v14 (Host.divf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    binary main_cst_5 main_v11 main_v15 (mulf : (⟨S_, .f32⟩ : BufTy).Contents (Elt F) → (⟨S_, .f32⟩ : BufTy).Contents (Elt F) → (⟨S_, .f32⟩ : BufTy).Contents (Elt F)),
    binary main_v15 main_v14 main_v16 (addf : (⟨S_, .f32⟩ : BufTy).Contents (Elt F) → (⟨S_, .f32⟩ : BufTy).Contents (Elt F) → (⟨S_, .f32⟩ : BufTy).Contents (Elt F)) ]

-- thirty-four binds re-associated: the rewrite under the chain recurses once per statement
set_option maxRecDepth 1024 in
/-- The program is that straight line: the called functions' bodies unfolded at their calls, both
    sides are one chain of operation steps once sequencing is re-associated. -/
theorem main_eq (c : Dev nD) : main (F := F) c = seq ops := by
  simp only [main, fn_trace.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    nullary_bufs_sub .., binary_bufs_sub .., unary_bufs_sub .., binary_bufs_sub .., nullary_bufs_sub .., unary_bufs_sub ..,
    binary_bufs_sub .., ternary_bufs_sub .., binary_bufs_sub .., binary_bufs_sub .., nullary_bufs_sub .., binary_bufs_sub ..,
    nullary_bufs_sub .., binary_bufs_sub .., unary_bufs_sub .., nullary_bufs_sub .., binary_bufs_sub .., nullary_bufs_sub ..,
    binary_bufs_sub .., nullary_bufs_sub .., binary_bufs_sub .., binary_bufs_sub ..⟩

/-! ## The stages, as composed operation terms of the argument arrays -/

/-- The difference `x̂ − W`. -/
def diff (W Xh : (⟨S4096x4096, .f32⟩ : BufTy).Contents (Elt F)) : (⟨S4096x4096, .f32⟩ : BufTy).Contents (Elt F) :=
  subf Xh W

/-- The trace of `H`: the sum over all entries of `H` masked to its diagonal (row index plus zero
    equal to column index), zero elsewhere. -/
def trace (H : (⟨S4096x4096, .f32⟩ : BufTy).Contents (Elt F)) : (⟨S_, .f32⟩ : BufTy).Contents (Elt F) :=
  Host.reduceAdd
    (select
      (cmpi .eq (addi (iotaInDim S4096x4096 32 0) (broadcastInDim S4096x4096 ![] bcast_S_S4096x4096 (constantI S_ 32 0#32)))
        (iotaInDim S4096x4096 32 1))
      H (broadcastInDim S4096x4096 ![] bcast_S_S4096x4096 (constant (F := F) S_ .f32 0x00000000#32)))
    (constant (F := F) S_ .f32 0x00000000#32) reducesTo_S4096x4096_S_d0_1 h_S_

/-- Whether the trace is positive. -/
def pos (H : (⟨S4096x4096, .f32⟩ : BufTy).Contents (Elt F)) : (⟨S_, .i1⟩ : BufTy).Contents (Elt F) :=
  cmpf .ogt (trace H) (constant (F := F) S_ .f32 0x00000000#32)

/-- The normalised matrix: `H / tr H · 2⁻¹²` when the trace is positive, `H` itself otherwise. -/
def hn (H : (⟨S4096x4096, .f32⟩ : BufTy).Contents (Elt F)) : (⟨S4096x4096, .f32⟩ : BufTy).Contents (Elt F) :=
  select (broadcastInDim S4096x4096 ![] bcast_S_S4096x4096 (pos H))
    (mulf (Host.divf H (broadcastInDim S4096x4096 ![] bcast_S_S4096x4096 (trace H)))
      (broadcastInDim S4096x4096 ![] bcast_S_S4096x4096 (constant (F := F) S_ .f32 0x39800000#32)))
    H

/-- The quadratic form `Σ ((D · Hn) ∘ D)` of the difference `D` in the normalised matrix: the sum
    over all entries of the matrix product `D · Hn` times `D` entrywise. -/
def quad (W Xh H : (⟨S4096x4096, .f32⟩ : BufTy).Contents (Elt F)) : (⟨S_, .f32⟩ : BufTy).Contents (Elt F) :=
  Host.reduceAdd
    (mulf (Host.dotGeneral dot_S4096x4096_S4096x4096_S4096x4096_1_0_0_1_n_n none (diff W Xh) (hn H)) (diff W Xh))
    (constant (F := F) S_ .f32 0x00000000#32) reducesTo_S4096x4096_S_d0_1 h_S_

/-- The sum over all entries of the logarithms of the likelihoods. -/
def logsum (L : (⟨S4096x4096, .f32⟩ : BufTy).Contents (Elt F)) : (⟨S_, .f32⟩ : BufTy).Contents (Elt F) :=
  Host.reduceAdd (Host.log L) (constant (F := F) S_ .f32 0x00000000#32) reducesTo_S4096x4096_S_d0_1 h_S_

/-- The quadratic form over one. -/
def adaptive (W Xh H : (⟨S4096x4096, .f32⟩ : BufTy).Contents (Elt F)) : (⟨S_, .f32⟩ : BufTy).Contents (Elt F) :=
  Host.divf (quad W Xh H) (constant (F := F) S_ .f32 0x3F800000#32)

/-- The sum of the logarithms over the constant `−(4096 · 4096) · ln 2` rounded. -/
def bpp (L : (⟨S4096x4096, .f32⟩ : BufTy).Contents (Elt F)) : (⟨S_, .f32⟩ : BufTy).Contents (Elt F) :=
  Host.divf (logsum L) (constant (F := F) S_ .f32 0xCB317218#32)

/-- The loss: one times the quadratic form, plus the rate term. -/
def loss (W Xh L H : (⟨S4096x4096, .f32⟩ : BufTy).Contents (Elt F)) : (⟨S_, .f32⟩ : BufTy).Contents (Elt F) :=
  addf (mulf (constant (F := F) S_ .f32 0x3F800000#32) (adaptive W Xh H)) (bpp L)

/-- On every device, for any float values, from any memory with zero counters: every weakly fair
    execution of the program terminates with the three results at the stages' terms of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = loss (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v11) = adaptive (m ((c.tc : Thread nD τ).loc main_arg0)) (m ((c.tc : Thread nD τ).loc main_arg1)) (m ((c.tc : Thread nD τ).loc main_arg4))
      ∧ r.2.mem ((c.tc : Thread nD τ).loc main_v14) = bpp (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v16).trans (by after_results_simp; rfl),
      (h c main_v11).trans (by after_results_simp; rfl),
      (h c main_v14).trans (by after_results_simp; rfl),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.RefRun

end
-- ==== Proof.Algebra.lean ====
import Idealize.ShloMosaic.PureOps.Ideal.Laws

noncomputable section

open scoped BigOperators

/-!
  Algebra over the reals and the extended reals, free of any program. Finite sums of reals embed
  into the extended reals term by term; a sum over r < B * K splits into B consecutive blocks of
  length K; and a bilinear-in-h double sum scales linearly in h. The scaling law is stated for real
  entries because multiplication does not distribute over addition at the infinities of the extended
  reals. Last, three bit patterns of the 32-bit format read as the reals they denote, and division of
  extended reals at a real divisor that is not zero.
-/

namespace Cert.Algebra

open Idealize.ShloMosaic

/-- The embedding of the reals into the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over r < B * K is the sum over the B blocks s of the K terms r = K * s + p, p < K:
    every r < B * K is K * s + p for exactly one pair s < B, p < K. -/
theorem sum_blocks {β : Type*} [AddCommMonoid β] (B K : ℕ) (f : ℕ → β) :
    ∑ r : Fin (B * K), f r.val = ∑ s ∈ Finset.range B, ∑ p : Fin K, f (K * s + p.val) := by
  rw [← Fin.sum_univ_eq_sum_range (fun s => ∑ p : Fin K, f (K * s + p.val)) B,
    ← Equiv.sum_comp finProdFinEquiv (fun r : Fin (B * K) => f r.val), Fintype.sum_prod_type]
  refine Finset.sum_congr rfl fun a _ => Finset.sum_congr rfl fun b _ => ?_
  show f (b.val + K * a.val) = f (K * a.val + b.val)
  rw [Nat.add_comm]

/-- A sum over r < (n + n) * K is the sum over the first n blocks of length K plus the sum over the
    next n blocks. -/
theorem sum_two_runs {β : Type*} [AddCommMonoid β] (n K : ℕ) (f : ℕ → β) :
    ∑ r : Fin ((n + n) * K), f r.val
      = (∑ s ∈ Finset.range n, ∑ p : Fin K, f (K * s + p.val)) + ∑ s ∈ Finset.range n, ∑ p : Fin K, f (K * (n + s) + p.val) := by
  rw [sum_blocks, Finset.sum_range_add]

/-- Σ_r Σ_c (Σ_k d r k · h k c) · d r c is linear in h: scaling the whole sum by x is scaling every
    entry of h by x. All entries are real, so both sides are images of real numbers and the identity
    is the reals' distributivity and commutativity. -/
theorem scale_law {N : ℕ} (d h : Fin N → Fin N → ℝ) (x : ℝ) :
    (∑ r : Fin N, ∑ c : Fin N, (∑ k : Fin N, (d r k : EReal) * (h k c : EReal)) * (d r c : EReal)) * (x : EReal)
      = ∑ r : Fin N, ∑ c : Fin N, (∑ k : Fin N, (d r k : EReal) * ((h k c * x : ℝ) : EReal)) * (d r c : EReal) := by
  have hL : (((∑ r : Fin N, ∑ c : Fin N, (∑ k : Fin N, d r k * h k c) * d r c) * x : ℝ) : EReal)
      = (∑ r : Fin N, ∑ c : Fin N, (∑ k : Fin N, (d r k : EReal) * (h k c : EReal)) * (d r c : EReal)) * (x : EReal) := by
    simp only [EReal.coe_mul, coe_sum]
  have hR : ((∑ r : Fin N, ∑ c : Fin N, (∑ k : Fin N, d r k * (h k c * x)) * d r c : ℝ) : EReal)
      = ∑ r : Fin N, ∑ c : Fin N, (∑ k : Fin N, (d r k : EReal) * ((h k c * x : ℝ) : EReal)) * (d r c : EReal) := by
    simp only [EReal.coe_mul, coe_sum]
  rw [← hL, ← hR]
  congr 1
  rw [Finset.sum_mul]
  refine Finset.sum_congr rfl fun r _ => ?_
  rw [Finset.sum_mul]
  refine Finset.sum_congr rfl fun c _ => ?_
  have hk : ∑ k : Fin N, d r k * (h k c * x) = (∑ k : Fin N, d r k * h k c) * x := by
    rw [Finset.sum_mul]
    exact Finset.sum_congr rfl fun k _ => by ring
  rw [hk]
  ring

/-- The 32-bit pattern with sign 0, exponent field 115 and empty significand is 2^(115 - 127) = 1 / 4096. -/
theorem scale_f32 : Ideal.ofBits .f32 0x39800000#32 = (((1 : ℝ) / 4096 : ℝ) : EReal) := by
  simp [Ideal.ofBits, Ideal.ieee, -EReal.coe_mul]; norm_num

/-- That pattern denotes a real number. -/
theorem scale_is_real : ∃ r : ℝ, Ideal.ofBits .f32 0x39800000#32 = (r : EReal) :=
  ⟨_, scale_f32⟩

/-- The 32-bit pattern with sign 0, exponent field 127 and empty significand is 2^0 = 1. -/
theorem one_f32 : Ideal.ofBits .f32 0x3F800000#32 = 1 := by
  rw [show (1 : EReal) = ((1 : ℝ) : EReal) by norm_cast]
  simp [Ideal.ofBits, Ideal.ieee, -EReal.coe_mul]; norm_num

/-- A real divided by a real that is not zero is the real product with the reciprocal. -/
theorem div_coe_coe (a b : ℝ) (hb : b ≠ 0) : Ideal.div (a : EReal) (b : EReal) = ((a * (1 / b) : ℝ) : EReal) := by
  rw [Ideal.div_coe hb, EReal.coe_mul]

/-- Division by one is the identity, at the infinities too. -/
theorem div_one (x : EReal) : Ideal.div x 1 = x := by
  have h := Ideal.div_coe (y := 1) one_ne_zero x
  simpa using h

end Cert.Algebra

end
-- ==== Proof.KRead.lean ====
import proofs.«166908_j73950746902747_2_alg».proof.Proof.Gen.KernelIdeal
import proofs.«166908_j73950746902747_2_alg».proof.Proof.RefRun
import proofs.«166908_j73950746902747_2_alg».proof.Proof.Algebra
import Idealize.ShloMosaic.Lib.Pipeline.Value
import Idealize.ShloMosaic.Lib.ValueIdx
import Idealize.ShloMosaic.PureOps.Ideal.Laws

/-!
# Three readings on the kernel program's side, on the extended reals

The kernel program's host operations around its kernels, read at the ideal values: the sum of the
two corner entries `(0, 0)` and `(8, 0)` of a `16 × 128` array, each taken as a `1 × 1` slice
reshaped to a scalar; the scalar factor `(1 / 4096) / tr` on a positive trace and `1` otherwise;
and the trace itself, which is term for term the reference's trace, with its sign test.
-/

noncomputable section

namespace Cert.KernelIdeal.KRead

open Cert.KernelIdeal Cert.KernelIdeal.Gen Idealize.ShloMosaic Idealize.ShloMosaic.ValueIdx

/-- The scalar shape's one index is at row-major position zero. -/
theorem rowMajor_scalar : (S_.rowMajor ix0).val = 0 := Shape.rowMajorPi_zero _ _

/-- The `1 × 1` slice of a `16 × 128` array at offset `(o, 0)`, reshaped to a scalar, is the array's
    entry `(o, 0)`: the slice's one index `(0, 0)` is at row-major position zero, as the scalar's
    one index is, and the slice reads the array at its index shifted by the offset. -/
theorem slice_scalar (A : FVec Ideal S16x128 .f32) (o : Fin 16) (h : S16x128.Slices ![o.val, 0] S1x1) :
    (shapeCast S_ (extractStridedSlice S1x1 ![o.val, 0] A h) shapeCasts_S1x1_S_ : FVec Ideal S_ .f32) ix0
      = A (ix2 o (0 : Fin 128)) := by
  refine (shapeCast_apply _ shapeCasts_S1x1_S_ ix0 (ix2 (0 : Fin 1) (0 : Fin 1)) ?_).trans ?_
  · rw [Shape.rowMajor_val_two, rowMajor_scalar]
    rfl
  · refine extractStridedSlice_apply _ A h _ (ix2 o (0 : Fin 128)) ?_
    intro a
    match a with
    | ⟨0, _⟩ => rfl
    | ⟨1, _⟩ => rfl

/-- The sum of the two corner scalars is the sum of the entries `(0, 0)` and `(8, 0)`. -/
theorem corner_apply (A : FVec Ideal S16x128 .f32) :
    (addf (shapeCast S_ (extractStridedSlice S1x1 ![0, 0] A slices_S16x128_S1x1_0_0) shapeCasts_S1x1_S_)
          (shapeCast S_ (extractStridedSlice S1x1 ![8, 0] A slices_S16x128_S1x1_8_0) shapeCasts_S1x1_S_) : FVec Ideal S_ .f32) ix0
      = A (ix2 (0 : Fin 16) (0 : Fin 128)) + A (ix2 (8 : Fin 16) (0 : Fin 128)) := by
  rw [addf_apply]
  exact congrArg₂ (· + ·) (slice_scalar A 0 slices_S16x128_S1x1_0_0) (slice_scalar A 8 slices_S16x128_S1x1_8_0)

/-- The scalar factor: `(1 / 4096) / tr` when `tr` is above zero, one otherwise. -/
theorem factor_apply (tr : FVec Ideal S_ .f32) :
    (select (cmpf .ogt tr (constant (F := Ideal) S_ .f32 0x00000000#32)) (Host.divf (constant (F := Ideal) S_ .f32 0x39800000#32) tr) (constant (F := Ideal) S_ .f32 0x3F800000#32) : FVec Ideal S_ .f32) ix0
      = Scalar.select (Ideal.cmp .ogt (tr ix0) 0) (Ideal.div ((((1 : ℝ) / 4096 : ℝ)) : EReal) (tr ix0)) 1 := by
  show Scalar.select (Ideal.cmp .ogt (tr ix0) (Ideal.ofBits .f32 0x00000000#32))
      (Ideal.div (Ideal.ofBits .f32 0x39800000#32) (tr ix0)) (Ideal.ofBits .f32 0x3F800000#32) = _
  rw [Ideal.ofBits_zero_f32, Cert.Algebra.scale_f32, Cert.Algebra.one_f32]

/-- The kernel program's trace is the reference's: the same operations on the same shapes. -/
theorem trace_eq (H : FVec Ideal S4096x4096 .f32) :
    (Host.reduceAdd (select (cmpi .eq (addi (iotaInDim S4096x4096 32 0) (broadcastInDim S4096x4096 ![] bcast_S_S4096x4096 (constantI S_ 32 0#32))) (iotaInDim S4096x4096 32 1)) H (broadcastInDim S4096x4096 ![] bcast_S_S4096x4096 (constant (F := Ideal) S_ .f32 0x00000000#32))) (constant (F := Ideal) S_ .f32 0x00000000#32) reducesTo_S4096x4096_S_d0_1 h_S_ : FVec Ideal S_ .f32)
      = Cert.ReferenceIdeal.RefRun.trace (F := Ideal) H :=
  rfl

/-- The sign test of a scalar against zero is the comparison of extended reals. -/
theorem pos_eq (tr : FVec Ideal S_ .f32) :
    (cmpf .ogt tr (constant (F := Ideal) S_ .f32 0x00000000#32) : IVec S_ 1) ix0 = Ideal.cmp .ogt (tr ix0) 0 := by
  show Ideal.cmp .ogt (tr ix0) (Ideal.ofBits .f32 0x00000000#32) = _
  rw [Ideal.ofBits_zero_f32]

end Cert.KernelIdeal.KRead

end
-- ==== Proof.Steps.lean ====
/-
  What one step of each kernel body leaves in its 8 × 128 accumulator block.  Both bodies have the same two control
  cases: at the first step of a core's run the block is first set to zero, and at every step the block is read,
  one number — a total over the step's input block — is added to every entry, and the block is stored back.  So
  a step leaves the step's store value (the payload) of the input blocks and of what the block held before: the
  zero block in the first case, the contents left by the step before in the other.
-/
import proofs.«166908_j73950746902747_2_alg».proof.Proof.Gen.KernelIdeal.Frame
import Idealize.ShloMosaic.Lib.Pipeline.Value
import Idealize.ShloMosaic.Lib.Tactic

noncomputable section

namespace Cert.KernelIdeal.Steps

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- First kernel, a later step of a run: the block that held `xo` holds the payload of the two input blocks and `xo`. -/
theorem out0_B (c : Dev nD) (i : grid0.Coords) (a2 : Memref sig .tc .vmem S128x4096 .f32) (h2 : a2.IsWhole)
    (a3 : Memref sig .tc .vmem S4096x4096 .bf16) (h3 : a3.IsWhole) (a4 : Memref sig .tc .vmem S8x128 .f32) (h4 : a4.IsWhole)
    (hc : ¬cond0_0 i) (x0 : Vec F S128x4096 .f32) (x1 : Vec F S4096x4096 .bf16) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S128x4096) hz,
    View.ld_unit_zero (S := S4096x4096) hz, View.ld_unit_zero (S := S8x128) hz]

/-- First kernel, the first step of a run: the block is zeroed, so it ends at the payload over the zero block. -/
theorem out0_A (c : Dev nD) (i : grid0.Coords) (a2 : Memref sig .tc .vmem S128x4096 .f32) (h2 : a2.IsWhole)
    (a3 : Memref sig .tc .vmem S4096x4096 .bf16) (h3 : a3.IsWhole) (a4 : Memref sig .tc .vmem S8x128 .f32) (h4 : a4.IsWhole)
    (hc : cond0_0 i) (x0 : Vec F S128x4096 .f32) (x1 : Vec F S4096x4096 .bf16) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S128x4096) hz,
    View.ld_unit_zero (S := S4096x4096) hz, View.ld_unit_zero (S := S8x128) hz]

/-- Second kernel, a later step of a run. -/
theorem out1_B (c : Dev nD) (i : grid1.Coords) (a2 : Memref sig .tc .vmem S512x4096 .f32) (h2 : a2.IsWhole)
    (a3 : Memref sig .tc .vmem S8x128 .f32) (h3 : a3.IsWhole)
    (hc : ¬cond1_0 i) (x0 : Vec F S512x4096 .f32) (xo : Vec F S8x128 .f32) :
    out1_B_1 c i a2 h2 a3 h3 hc x0 xo = k1_pay2 x0 xo := by
  unfold out1_B_1
  rw [View.read_writes_eq_canon _ _ _ (cover1_B_1 c i a2 h2 a3 h3 hc x0 xo)]
  unfold kernelRun1_B
  dsimp only
  rw [View.canon_unit_zero hz]
  simp only [View.readAt_eq_ld, h2.read_unread, h3.read_unread, View.ld_unit_zero (S := S512x4096) hz,
    View.ld_unit_zero (S := S8x128) hz]

/-- Second kernel, the first step of a run. -/
theorem out1_A (c : Dev nD) (i : grid1.Coords) (a2 : Memref sig .tc .vmem S512x4096 .f32) (h2 : a2.IsWhole)
    (a3 : Memref sig .tc .vmem S8x128 .f32) (h3 : a3.IsWhole)
    (hc : cond1_0 i) (x0 : Vec F S512x4096 .f32) :
    out1_A_1 c i a2 h2 a3 h3 hc x0 = k1_pay2 x0 (k1_pay1 (F := F)) := by
  unfold out1_A_1
  rw [View.read_writes_eq_canon _ _ _ (cover1_A_1 c i a2 h2 a3 h3 hc x0)]
  unfold kernelRun1_A
  dsimp only
  sl_unfold_words
  rw [View.canon_cons_unit_zero (S := S8x128) hz, View.readCov_unit_zero (S := S8x128) _ hz]
  simp only [View.readAt_eq_ld, h2.read_unread, View.ld_unit_zero (S := S512x4096) hz,
    View.ld_unit_zero (S := S8x128) hz]

end Cert.KernelIdeal.Steps

end
-- ==== Proof.Runs.lean ====
/-
  The accumulator block after each grid step, as a fold over the run of steps of one core.  The first kernel's
  grid has 2 × 16 steps and the second's 2 × 4, taken in row-major order, so step t belongs to core t / 16
  (t / 4) and is that core's step number t % 16 (t % 4).  At the first step of a run the block is reset and the
  step's total added; at each later step the step's total is added to what the step before left.  Hence after
  step t the block is the fold of the step function from the run's first step up to t.
-/
import proofs.«166908_j73950746902747_2_alg».proof.Proof.Steps

noncomputable section

namespace Cert.KernelIdeal.Runs

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- First kernel: the block after a run's first step (numbered n in the grid), and the step function at step n. -/
def start0 (c : Dev nD) : (n : ℕ) → n < cfg0.N → Vec F S8x128 .f32 :=
  fun n h => k0_pay2 (iblk0 V c 0 ⟨n, h⟩) (iblk0 V c 1 ⟨n, h⟩) (k0_pay1 (F := F))
def step0 (c : Dev nD) : (n : ℕ) → n < cfg0.N → Vec F S8x128 .f32 → Vec F S8x128 .f32 :=
  fun n h acc => k0_pay2 (iblk0 V c 0 ⟨n, h⟩) (iblk0 V c 1 ⟨n, h⟩) acc

/-- After step t the first kernel's block is the fold over steps 16·(t/16) … t. -/
theorem outsAt0_eq (c : Dev nD) (t : ℕ) (ht : t < cfg0.N) (h' : 16 * (t / 16) + t % 16 < cfg0.N) :
    outsAt0 V c t ht = Pipeline.accAt (start0 V c) (step0 V c) (16 * (t / 16)) (t % 16) h' :=
  Pipeline.eq_accAt_of_mod (outsAt0 V c) 16 (start0 V c) (step0 V c)
    (fun n h hn => (outsAt0_A V c ⟨n, h⟩ hn).trans (Steps.out0_A ..))
    (fun n h hn => (outsAt0_B V c ⟨n + 1, h⟩ hn).trans (Steps.out0_B ..))
    (by decide) t ht h'

/-- Second kernel: the same with runs of 4 steps. -/
def start1 (c : Dev nD) : (n : ℕ) → n < cfg1.N → Vec F S8x128 .f32 :=
  fun n h => k1_pay2 (iblk1 V c 0 ⟨n, h⟩) (k1_pay1 (F := F))
def step1 (c : Dev nD) : (n : ℕ) → n < cfg1.N → Vec F S8x128 .f32 → Vec F S8x128 .f32 :=
  fun n h acc => k1_pay2 (iblk1 V c 0 ⟨n, h⟩) acc

theorem outsAt1_eq (c : Dev nD) (t : ℕ) (ht : t < cfg1.N) (h' : 4 * (t / 4) + t % 4 < cfg1.N) :
    outsAt1 V c t ht = Pipeline.accAt (start1 V c) (step1 V c) (4 * (t / 4)) (t % 4) h' :=
  Pipeline.eq_accAt_of_mod (outsAt1 V c) 4 (start1 V c) (step1 V c)
    (fun n h hn => (outsAt1_A V c ⟨n, h⟩ hn).trans (Steps.out1_A ..))
    (fun n h hn => (outsAt1_B V c ⟨n + 1, h⟩ hn).trans (Steps.out1_B ..))
    (by decide) t ht h'

end Cert.KernelIdeal.Runs

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.Payload.lean ====
/-
  The two kernels' store values read on the extended reals.  A step of the first kernel adds to every entry of
  the 8 × 128 accumulator block ONE number: with x its 128 × 4096 block of rows of the difference array and h
  the whole 4096 × 4096 weight array, the total over (p, q) of (Σ_k x(p,k) · h(k,q)) · x(p,q) — the product goes
  into a zero accumulator, the change of format on the way in is the identity here, and the reduction over both
  axes of the block starts from zero.  A step of the second kernel adds the total over its 512 × 4096 block of
  the logarithms.  The reset value is the zero block.
-/
import proofs.«166908_j73950746902747_2_alg».proof.Proof.Gen.KernelIdeal.Skeleton
import proofs.«166908_j73950746902747_2_alg».proof.Proof.LibRowsProduct
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The first kernel's total over one block of rows x against the whole weight array h. -/
def tot0 (x : FVec Ideal S128x4096 .f32) (h : FVec Ideal S4096x4096 .bf16) : EReal :=
  ∑ p : Fin 128, ∑ q : Fin 4096, (∑ k : Fin 4096, x (ix2 p k) * h (ix2 k q)) * x (ix2 p q)

/-- The second kernel's total over one block of rows: the sum of the logarithms. -/
def tot1 (x : FVec Ideal S512x4096 .f32) : EReal :=
  ∑ p : Fin 512, ∑ q : Fin 4096, Ideal.log (x (ix2 p q))

/-- The reset value is zero at every entry. -/
theorem pay0_zero (j : S8x128.Idx) : k0_pay1 (F := Ideal) j = 0 := by
  unfold k0_pay1
  exact Ideal.ofBits_zero_f32

theorem pay1_zero (j : S8x128.Idx) : k1_pay1 (F := Ideal) j = 0 := by
  unfold k1_pay1
  exact Ideal.ofBits_zero_f32

/-- A sum over a recast array is the sum over the array: the recast only renames the indices. -/
theorem sum_shapeCast {s t : Shape} (x : s.Idx → EReal) (h : s.ShapeCasts t) :
    ∑ j : t.Idx, shapeCast t x h j = ∑ i : s.Idx, x i := by
  unfold shapeCast
  exact Equiv.sum_comp (Shape.reshapeEquiv h) x

/-- The first kernel's store value at an entry: what the block held there plus the step's total. -/
theorem pay0_apply (x : FVec Ideal S128x4096 .f32) (h : FVec Ideal S4096x4096 .bf16) (acc : FVec Ideal S8x128 .f32)
    (j : S8x128.Idx) : k0_pay2 (F := Ideal) x h acc j = acc j + tot0 x h := by
  unfold k0_pay2
  simp only [shapeCast_self]
  rw [addf_apply, broadcast_apply]
  refine congrArg (acc j + ·) ?_
  unfold extractAt
  rw [shapeCast]
  refine (Ideal.multiReduction_add_total _ _ _ (fun b => ?_) _ _ _).trans ?_
  · match b with
    | ⟨0, _⟩ => rfl
  rw [sum_shapeCast, sum_idx2]
  unfold tot0
  refine Finset.sum_congr rfl fun p _ => Finset.sum_congr rfl fun q _ => ?_
  rw [mulf_apply]
  refine congrArg (· * x (ix2 p q)) ?_
  exact Cert.RowsProduct.matmul_zero_rows_apply dot_S128x4096_S4096x4096_S128x4096_1_0_0_1_n_n none rfl rfl
    (fun _ _ => rfl) (fun _ _ => rfl) (fun _ _ => rfl) (fun _ _ => rfl) _ h p q

/-- The second kernel's store value at an entry. -/
theorem pay1_apply (x : FVec Ideal S512x4096 .f32) (acc : FVec Ideal S8x128 .f32) (j : S8x128.Idx) :
    k1_pay2 (F := Ideal) x acc j = acc j + tot1 x := by
  unfold k1_pay2
  simp only [shapeCast_self]
  rw [addf_apply, broadcast_apply]
  refine congrArg (acc j + ·) ?_
  unfold extractAt
  rw [shapeCast]
  refine (Ideal.multiReduction_add_total _ _ _ (fun b => ?_) _ _ _).trans ?_
  · match b with
    | ⟨0, _⟩ => rfl
  rw [sum_shapeCast, sum_idx2]
  rfl

end Cert.KernelIdeal.Payload

end
-- ==== Proof.Blocks.lean ====
/-
  The input windows' blocks as parts of their arrays.  At grid step t the first kernel's first window holds rows
  128·t … 128·t + 127 of its 4096 × 4096 array (all columns), its second window the whole weight array; the second
  kernel's window holds rows 512·t … 512·t + 511 of its array.  Each reads: block entry (p, k) is array entry
  (size · t + p, k).
-/
import proofs.«166908_j73950746902747_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The block indices of the three input windows at step t. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx1_0 : ∀ t : Fin cfg1.N, win1_0.index t 0 = t.val ∧ win1_0.index t 1 = 0 :=
  (by decide +kernel : ∀ t : Fin grid1.N, win1_0.index t 0 = t.val ∧ win1_0.index t 1 = 0)

/-- First kernel, first window: rows 128·t + p. -/
theorem iblk0_0_apply (c : Dev nD) (t : Fin cfg0.N) (p : Fin 128) (k : Fin 4096) (hr : 128 * t.val + p.val < 4096) :
    (iblk0 V c 0 t : Vec F S128x4096 .f32) (ix2 p k) = V c main_v0 (ix2 ⟨128 * t.val + p.val, hr⟩ k) := by
  unfold iblk0
  rw [View.read_apply]
  show V c main_v0 _ = V c main_v0 _
  refine congrArg (V c main_v0) ?_
  funext a
  apply Fin.ext
  match a with
  | ⟨0, _⟩ => show win0_0.index t 0 * 128 + 1 * p.val = 128 * t.val + p.val; rw [(idx0_0 t).1]; omega
  | ⟨1, _⟩ => show win0_0.index t 1 * 4096 + 1 * k.val = k.val; rw [(idx0_0 t).2]; omega

/-- First kernel, second window: the whole array. -/
theorem iblk0_1_apply (c : Dev nD) (t : Fin cfg0.N) (k q : Fin 4096) :
    (iblk0 V c 1 t : Vec F S4096x4096 .bf16) (ix2 k q) = V c main_v5 (ix2 k q) := by
  unfold iblk0
  rw [View.read_apply]
  show V c main_v5 _ = V c main_v5 _
  refine congrArg (V c main_v5) ?_
  funext a
  apply Fin.ext
  match a with
  | ⟨0, _⟩ => show win0_1.index t 0 * 4096 + 1 * k.val = k.val; rw [(idx0_1 t).1]; omega
  | ⟨1, _⟩ => show win0_1.index t 1 * 4096 + 1 * q.val = q.val; rw [(idx0_1 t).2]; omega

/-- Second kernel: rows 512·t + p. -/
theorem iblk1_0_apply (c : Dev nD) (t : Fin cfg1.N) (p : Fin 512) (q : Fin 4096) (hr : 512 * t.val + p.val < 4096) :
    (iblk1 V c 0 t : Vec F S512x4096 .f32) (ix2 p q) = V c main_arg3 (ix2 ⟨512 * t.val + p.val, hr⟩ q) := by
  unfold iblk1
  rw [View.read_apply]
  show V c main_arg3 _ = V c main_arg3 _
  refine congrArg (V c main_arg3) ?_
  funext a
  apply Fin.ext
  match a with
  | ⟨0, _⟩ => show win1_0.index t 0 * 512 + 1 * p.val = 512 * t.val + p.val; rw [(idx1_0 t).1]; omega
  | ⟨1, _⟩ => show win1_0.index t 1 * 4096 + 1 * q.val = q.val; rw [(idx1_0 t).2]; omega

end Cert.KernelIdeal.Blocks

end
-- ==== Proof.Final.lean ====
/-
  What the two kernels leave in their 16 × 128 result arrays, on the extended reals.  Each core's 8 × 128 block is
  written back once, after the last step of the core's run, and every entry of it is then the same number: zero
  plus the totals of the run's steps in order.  So entry (i, ·) of the first kernel's result is zero plus the sum
  over the 16 steps of core i / 8 of the step totals, and likewise with 4 steps for the second kernel.  A step's
  total is a sum over the rows of its block of a per-row quantity of the whole arrays, and the two cores' runs
  together go through all 4096 rows once.
-/
import proofs.«166908_j73950746902747_2_alg».proof.Proof.Runs
import proofs.«166908_j73950746902747_2_alg».proof.Proof.Payload
import proofs.«166908_j73950746902747_2_alg».proof.Proof.Blocks

noncomputable section

open scoped BigOperators

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first kernel -/

/-- Step n's total (zero for a number past the grid). -/
def M0 (c : Dev nD) (n : ℕ) : EReal :=
  if h : n < cfg0.N then Payload.tot0 (iblk0 V c 0 ⟨n, h⟩) (iblk0 V c 1 ⟨n, h⟩) else 0

/-- After step t every entry of the block is zero plus the totals of the run's steps up to t. -/
theorem outsAt0_apply (c : Dev nD) (t : ℕ) (ht : t < cfg0.N) (j : S8x128.Idx) :
    outsAt0 V c t ht j = 0 + ∑ s ∈ Finset.range (t % 16 + 1), M0 V c (16 * (t / 16) + s) := by
  have h' : 16 * (t / 16) + t % 16 < cfg0.N := by rw [Nat.div_add_mod]; exact ht
  rw [Runs.outsAt0_eq V c t ht h']
  exact Pipeline.accAt_add_apply (ι := S8x128.Idx) (β := EReal) (Runs.start0 V c) (Runs.step0 V c) (fun _ => 0)
    (fun n _ => M0 V c n) (16 * (t / 16)) 15
    (fun h i => (Payload.pay0_apply _ _ _ i).trans (by rw [Payload.pay0_zero, M0, dif_pos h]))
    (fun n h acc i _ _ => (Payload.pay0_apply _ _ acc i).trans (by rw [M0, dif_pos h]))
    (t % 16) (by omega) h' j

/-- The number every entry of core q's block ends at. -/
def S0 (c : Dev nD) (q : ℕ) : EReal := 0 + ∑ s ∈ Finset.range 16, M0 V c (16 * q + s)

/-- The whole result array that the write-backs are blocks of. -/
def G0 (c : Dev nD) : S16x128.Idx → EReal := fun i => S0 V c ((i 0).val / 8)

theorem idx0_2 : ∀ t : Fin cfg0.N, win0_2.index t 0 = t.val / 16 ∧ win0_2.index t 1 = 0 :=
  (by decide +kernel : ∀ t : Fin grid0.N, win0_2.index t 0 = t.val / 16 ∧ win0_2.index t 1 = 0)

/-- What a write-back writes is its block of that array. -/
theorem flushed0_eq (c : Dev nD) (t : Fin cfg0.N) (hf : (cfg0.win 2).flush t = true) :
    (dat0 V c).flushed 2 t = ((cfg0.win 2).blk t).view.read (Elt Ideal) (G0 V c) := by
  have h15 : t.val % 16 = 15 := (flush0_2 t).mp hf
  funext y
  refine (congrFun (after0_2 V c t) _).trans ?_
  refine (outsAt0_apply V c t.val t.isLt _).trans ?_
  rw [View.read_apply]
  show _ = G0 V c (((cfg0.win 2).blk t).view.emb y)
  have hq : ((((cfg0.win 2).blk t).view.emb y) 0).val / 8 = t.val / 16 := by
    have h0 : ((((cfg0.win 2).blk t).view.emb y) 0).val = win0_2.index t 0 * 8 + 1 * (y 0).val := rfl
    have hy : (y 0).val < 8 := (y 0).isLt
    rw [h0, (idx0_2 t).1]; omega
  unfold G0 S0
  rw [hq, h15]

/-- An entry of the array lies in the block of every step of its core. -/
theorem mem_blk0 (t : Fin cfg0.N) (i : S16x128.Idx) (h : (i 0).val / 8 = t.val / 16) :
    i ∈ ((cfg0.win 2).blk t).view.set := by
  show i ∈ ((View.whole main_v6).slice (win0_2.rect t)).set
  rw [View.set_slice_whole, Rect.mem_set_unit]
  intro a
  have h0 := idx2_lt0 i
  have h1 := idx2_lt1 i
  match a with
  | ⟨0, _⟩ =>
    show win0_2.index t 0 * 8 ≤ (i 0 : Nat) ∧ (i 0 : Nat) < win0_2.index t 0 * 8 + 8
    rw [(idx0_2 t).1]; omega
  | ⟨1, _⟩ =>
    show win0_2.index t 1 * 128 ≤ (i 1 : Nat) ∧ (i 1 : Nat) < win0_2.index t 1 * 128 + 128
    rw [(idx0_2 t).2]; omega

/-- The first kernel's result array at an entry. -/
theorem arr0_apply (c : Dev nD) (i : S16x128.Idx) : (dat0 V c).arrAt 2 cfg0.N i = S0 V c ((i 0).val / 8) := by
  have h0 := idx2_lt0 i
  have hN : cfg0.N = 32 := N_0
  have hlt : 16 * ((i 0).val / 8) + 15 < cfg0.N := by rw [hN]; omega
  have hf : (cfg0.win 2).flush ⟨_, hlt⟩ = true := (flush0_2 ⟨_, hlt⟩).mpr (by show (16 * ((i 0).val / 8) + 15) % 16 = 15; omega)
  exact (dat0 V c).arrAt_apply_of_mem 2 (G0 V c) (flushed0_eq V c) cfg0.N ⟨_, hlt⟩ i hlt hf
    (mem_blk0 ⟨_, hlt⟩ i (by show (i 0).val / 8 = (16 * ((i 0).val / 8) + 15) / 16; omega))

/-! ## The second kernel -/

def M1 (c : Dev nD) (n : ℕ) : EReal :=
  if h : n < cfg1.N then Payload.tot1 (iblk1 V c 0 ⟨n, h⟩) else 0

theorem outsAt1_apply (c : Dev nD) (t : ℕ) (ht : t < cfg1.N) (j : S8x128.Idx) :
    outsAt1 V c t ht j = 0 + ∑ s ∈ Finset.range (t % 4 + 1), M1 V c (4 * (t / 4) + s) := by
  have h' : 4 * (t / 4) + t % 4 < cfg1.N := by rw [Nat.div_add_mod]; exact ht
  rw [Runs.outsAt1_eq V c t ht h']
  exact Pipeline.accAt_add_apply (ι := S8x128.Idx) (β := EReal) (Runs.start1 V c) (Runs.step1 V c) (fun _ => 0)
    (fun n _ => M1 V c n) (4 * (t / 4)) 3
    (fun h i => (Payload.pay1_apply _ _ i).trans (by rw [Payload.pay1_zero, M1, dif_pos h]))
    (fun n h acc i _ _ => (Payload.pay1_apply _ acc i).trans (by rw [M1, dif_pos h]))
    (t % 4) (by omega) h' j

def S1 (c : Dev nD) (q : ℕ) : EReal := 0 + ∑ s ∈ Finset.range 4, M1 V c (4 * q + s)

def G1 (c : Dev nD) : S16x128.Idx → EReal := fun i => S1 V c ((i 0).val / 8)

theorem idx1_1 : ∀ t : Fin cfg1.N, win1_1.index t 0 = t.val / 4 ∧ win1_1.index t 1 = 0 :=
  (by decide +kernel : ∀ t : Fin grid1.N, win1_1.index t 0 = t.val / 4 ∧ win1_1.index t 1 = 0)

theorem flushed1_eq (c : Dev nD) (t : Fin cfg1.N) (hf : (cfg1.win 1).flush t = true) :
    (dat1 V c).flushed 1 t = ((cfg1.win 1).blk t).view.read (Elt Ideal) (G1 V c) := by
  have h3 : t.val % 4 = 3 := (flush1_1 t).mp hf
  funext y
  refine (congrFun (after1_1 V c t) _).trans ?_
  refine (outsAt1_apply V c t.val t.isLt _).trans ?_
  rw [View.read_apply]
  show _ = G1 V c (((cfg1.win 1).blk t).view.emb y)
  have hq : ((((cfg1.win 1).blk t).view.emb y) 0).val / 8 = t.val / 4 := by
    have h0 : ((((cfg1.win 1).blk t).view.emb y) 0).val = win1_1.index t 0 * 8 + 1 * (y 0).val := rfl
    have hy : (y 0).val < 8 := (y 0).isLt
    rw [h0, (idx1_1 t).1]; omega
  unfold G1 S1
  rw [hq, h3]

theorem mem_blk1 (t : Fin cfg1.N) (i : S16x128.Idx) (h : (i 0).val / 8 = t.val / 4) :
    i ∈ ((cfg1.win 1).blk t).view.set := by
  show i ∈ ((View.whole main_v12).slice (win1_1.rect t)).set
  rw [View.set_slice_whole, Rect.mem_set_unit]
  intro a
  have h0 := idx2_lt0 i
  have h1 := idx2_lt1 i
  match a with
  | ⟨0, _⟩ =>
    show win1_1.index t 0 * 8 ≤ (i 0 : Nat) ∧ (i 0 : Nat) < win1_1.index t 0 * 8 + 8
    rw [(idx1_1 t).1]; omega
  | ⟨1, _⟩ =>
    show win1_1.index t 1 * 128 ≤ (i 1 : Nat) ∧ (i 1 : Nat) < win1_1.index t 1 * 128 + 128
    rw [(idx1_1 t).2]; omega

/-- The second kernel's result array at an entry. -/
theorem arr1_apply (c : Dev nD) (i : S16x128.Idx) : (dat1 V c).arrAt 1 cfg1.N i = S1 V c ((i 0).val / 8) := by
  have h0 := idx2_lt0 i
  have hN : cfg1.N = 8 := N_1
  have hlt : 4 * ((i 0).val / 8) + 3 < cfg1.N := by rw [hN]; omega
  have hf : (cfg1.win 1).flush ⟨_, hlt⟩ = true := (flush1_1 ⟨_, hlt⟩).mpr (by show (4 * ((i 0).val / 8) + 3) % 4 = 3; omega)
  exact (dat1 V c).arrAt_apply_of_mem 1 (G1 V c) (flushed1_eq V c) cfg1.N ⟨_, hlt⟩ i hlt hf
    (mem_blk1 ⟨_, hlt⟩ i (by show (i 0).val / 8 = (4 * ((i 0).val / 8) + 3) / 4; omega))

end Cert.KernelIdeal.Final

end
-- ==== Proof.Rows.lean ====
/-
  The two result arrays in terms of the whole input arrays.  A step's total is the sum, over the rows of the step's
  block, of a quantity of ONE row of the arrays: for the first kernel, row r of the difference array d against the
  weight array h gives Σ_q (Σ_k d(r,k) · h(k,q)) · d(r,q); for the second, row r of the likelihood array gives the
  sum of its logarithms.  Core 0's run covers rows 0 … 2047 and core 1's rows 2048 … 4095, in blocks of 128 (of 512)
  rows, so the two cores' numbers add up to the sum over all 4096 rows.
-/
import proofs.«166908_j73950746902747_2_alg».proof.Proof.Final
import proofs.«166908_j73950746902747_2_alg».proof.Proof.Algebra

noncomputable section

open scoped BigOperators

namespace Cert.KernelIdeal.Rows

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- Row r's quantity for the first kernel (zero for a number that is no row). -/
def row0 (D : FVec Ideal S4096x4096 .f32) (Hb : FVec Ideal S4096x4096 .bf16) (r : ℕ) : EReal :=
  if h : r < 4096 then ∑ q : Fin 4096, (∑ k : Fin 4096, D (ix2 ⟨r, h⟩ k) * Hb (ix2 k q)) * D (ix2 ⟨r, h⟩ q) else 0

/-- Row r's quantity for the second kernel. -/
def row1 (L : FVec Ideal S4096x4096 .f32) (r : ℕ) : EReal :=
  if h : r < 4096 then ∑ q : Fin 4096, Ideal.log (L (ix2 ⟨r, h⟩ q)) else 0

/-- The first kernel's form over whole arrays: Σ_{r,q} (Σ_k d(r,k) · h(k,q)) · d(r,q). -/
def form0 (D : FVec Ideal S4096x4096 .f32) (Hb : FVec Ideal S4096x4096 .bf16) : EReal :=
  ∑ r : Fin 4096, ∑ q : Fin 4096, (∑ k : Fin 4096, D (ix2 r k) * Hb (ix2 k q)) * D (ix2 r q)

/-- The second kernel's form: the sum of all the logarithms. -/
def form1 (L : FVec Ideal S4096x4096 .f32) : EReal :=
  ∑ r : Fin 4096, ∑ q : Fin 4096, Ideal.log (L (ix2 r q))

/-- Step n of the first kernel totals rows 128·n … 128·n + 127. -/
theorem M0_rows (c : Dev nD) (n : ℕ) (hn : n < 32) :
    Final.M0 V c n = ∑ p : Fin 128, row0 (V c main_v0) (V c main_v5) (128 * n + p.val) := by
  have hN : n < cfg0.N := by rw [show cfg0.N = 32 from N_0]; exact hn
  unfold Final.M0
  rw [dif_pos hN]
  unfold Payload.tot0
  refine Finset.sum_congr rfl fun p _ => ?_
  have hr : 128 * n + p.val < 4096 := by have := p.isLt; omega
  unfold row0
  rw [dif_pos hr]
  refine Finset.sum_congr rfl fun q _ => ?_
  rw [Blocks.iblk0_0_apply V c ⟨n, hN⟩ p q hr]
  refine congrArg (· * V c main_v0 (ix2 ⟨128 * n + p.val, hr⟩ q)) ?_
  refine Finset.sum_congr rfl fun k _ => ?_
  rw [Blocks.iblk0_0_apply V c ⟨n, hN⟩ p k hr, Blocks.iblk0_1_apply V c ⟨n, hN⟩ k q]

/-- Step n of the second kernel totals rows 512·n … 512·n + 511. -/
theorem M1_rows (c : Dev nD) (n : ℕ) (hn : n < 8) :
    Final.M1 V c n = ∑ p : Fin 512, row1 (V c main_arg3) (512 * n + p.val) := by
  have hN : n < cfg1.N := by rw [show cfg1.N = 8 from N_1]; exact hn
  unfold Final.M1
  rw [dif_pos hN]
  unfold Payload.tot1
  refine Finset.sum_congr rfl fun p _ => ?_
  have hr : 512 * n + p.val < 4096 := by have := p.isLt; omega
  unfold row1
  rw [dif_pos hr]
  refine Finset.sum_congr rfl fun q _ => ?_
  rw [Blocks.iblk1_0_apply V c ⟨n, hN⟩ p q hr]

/-- The two cores' numbers of the first kernel add up to the sum over all rows. -/
theorem S0_total (c : Dev nD) :
    Final.S0 V c 0 + Final.S0 V c 1 = form0 (V c main_v0) (V c main_v5) := by
  unfold Final.S0
  rw [zero_add, zero_add]
  have e0 : ∀ s ∈ Finset.range 16, Final.M0 V c (16 * 0 + s)
      = ∑ p : Fin 128, row0 (V c main_v0) (V c main_v5) (128 * s + p.val) := fun s hs => by
    rw [Nat.mul_zero, Nat.zero_add]
    exact M0_rows V c s (by have := Finset.mem_range.mp hs; omega)
  have e1 : ∀ s ∈ Finset.range 16, Final.M0 V c (16 * 1 + s)
      = ∑ p : Fin 128, row0 (V c main_v0) (V c main_v5) (128 * (16 + s) + p.val) := fun s hs => by
    rw [Nat.mul_one]
    exact M0_rows V c (16 + s) (by have := Finset.mem_range.mp hs; omega)
  rw [Finset.sum_congr rfl e0, Finset.sum_congr rfl e1]
  refine (Cert.Algebra.sum_two_runs 16 128 (row0 (V c main_v0) (V c main_v5))).symm.trans ?_
  show ∑ r : Fin 4096, row0 (V c main_v0) (V c main_v5) r.val = _
  unfold form0
  refine Finset.sum_congr rfl fun r _ => ?_
  unfold row0
  rw [dif_pos r.isLt]

/-- The two cores' numbers of the second kernel add up to the sum of all the logarithms. -/
theorem S1_total (c : Dev nD) :
    Final.S1 V c 0 + Final.S1 V c 1 = form1 (V c main_arg3) := by
  unfold Final.S1
  rw [zero_add, zero_add]
  have e0 : ∀ s ∈ Finset.range 4, Final.M1 V c (4 * 0 + s)
      = ∑ p : Fin 512, row1 (V c main_arg3) (512 * s + p.val) := fun s hs => by
    rw [Nat.mul_zero, Nat.zero_add]
    exact M1_rows V c s (by have := Finset.mem_range.mp hs; omega)
  have e1 : ∀ s ∈ Finset.range 4, Final.M1 V c (4 * 1 + s)
      = ∑ p : Fin 512, row1 (V c main_arg3) (512 * (4 + s) + p.val) := fun s hs => by
    rw [Nat.mul_one]
    exact M1_rows V c (4 + s) (by have := Finset.mem_range.mp hs; omega)
  rw [Finset.sum_congr rfl e0, Finset.sum_congr rfl e1]
  refine (Cert.Algebra.sum_two_runs 4 512 (row1 (V c main_arg3))).symm.trans ?_
  show ∑ r : Fin 4096, row1 (V c main_arg3) r.val = _
  unfold form1
  refine Finset.sum_congr rfl fun r _ => ?_
  unfold row1
  rw [dif_pos r.isLt]

end Cert.KernelIdeal.Rows

end
-- ==== Proof.Law.lean ====
/-
  The law that joins the two programs' quadratic forms.  With real arrays w, x (the difference d = x − w), h, a real
  trace t and the flag b that says t is positive: the kernel multiplies the plain form Σ_{r,q} (Σ_k d(r,k)·h(k,q))·d(r,q)
  by 2⁻¹² / t, or by one when the flag is off; the reference puts h(k,q) / t · 2⁻¹², or h(k,q) itself, inside the
  form.  When the flag is on t is a nonzero real, a quotient by it is a product with its reciprocal, and a real factor
  moves across the finite sums (every term is a real, so no infinity is in the way); when it is off both are the plain
  form.  The reference's sum starts from zero.
-/
import proofs.«166908_j73950746902747_2_alg».proof.Proof.Algebra
import Idealize.ShloMosaic.Lib.ValueIdx

noncomputable section

open scoped BigOperators

namespace Cert.Law

open Idealize.ShloMosaic Idealize.ShloMosaic.ValueIdx

theorem form_law {N : ℕ} (w x h : Fin N → Fin N → ℝ) (t : ℝ) (b : BitVec 1) (hb : b = 1#1 ↔ 0 < t) :
    (∑ r : Fin N, ∑ q : Fin N, (∑ k : Fin N, ((x r k : EReal) - (w r k : EReal)) * (h k q : EReal))
        * ((x r q : EReal) - (w r q : EReal)))
      * Scalar.select b (Ideal.div ((((1 : ℝ) / 4096 : ℝ)) : EReal) (t : EReal)) (1 : EReal)
    = 0 + ∑ r : Fin N, ∑ q : Fin N, (∑ k : Fin N, ((x r k : EReal) - (w r k : EReal))
          * Scalar.select b (Ideal.div (h k q : EReal) (t : EReal) * ((((1 : ℝ) / 4096 : ℝ)) : EReal)) (h k q : EReal))
        * ((x r q : EReal) - (w r q : EReal)) := by
  rcases BitVec.eq_zero_or_eq_one b with rfl | rfl
  · simp only [select_zero, mul_one, zero_add]
  · have ht : 0 < t := hb.mp rfl
    have hne : t ≠ 0 := ne_of_gt ht
    simp only [select_one, Cert.Algebra.div_coe_coe _ _ hne, zero_add]
    simp only [← EReal.coe_sub]
    refine (Cert.Algebra.scale_law (fun r k => x r k - w r k) h (1 / 4096 * (1 / t))).trans ?_
    refine Finset.sum_congr rfl fun r _ => Finset.sum_congr rfl fun q _ => ?_
    refine congrArg (· * ((x r q - w r q : ℝ) : EReal)) ?_
    refine Finset.sum_congr rfl fun k _ => ?_
    refine congrArg (((x r k - w r k : ℝ) : EReal) * ·) ?_
    rw [← EReal.coe_mul]
    refine congrArg (fun z : ℝ => (z : EReal)) ?_
    ring

end Cert.Law

end
-- ==== Proof.RefRead.lean ====
import proofs.«166908_j73950746902747_2_alg».proof.Proof.RefRun
import proofs.«166908_j73950746902747_2_alg».proof.Proof.LibRowsProduct
import Idealize.ShloMosaic.Lib.ValueIdx
import Idealize.ShloMosaic.PureOps.Ideal.Laws

/-!
# The reference's stages on the extended reals

At the ideal values every float is an extended real and every operation its textbook one. Here the
stages of the reference are read there, at an index: the two sums over all entries as double sums
over rows and columns, the matrix product inside the quadratic form as a sum over the contracted
coordinate, the normalised matrix entry by entry, the trace of a real matrix as a real, and the
trace's sign test as the order relation it decides.
-/

noncomputable section

open scoped BigOperators

namespace Cert.ReferenceIdeal.RefRead

open Cert.ReferenceIdeal Cert.ReferenceIdeal.Gen Cert.ReferenceIdeal.RefRun Idealize.ShloMosaic
open Idealize.ShloMosaic.ValueIdx (ix0 ix2 eq_ix0 sum_idx2 select_one select_zero)

/-- A scalar broadcast to the matrix shape reads the scalar at every index: the operand's index is a
    function out of the empty axis set, and there is only one. -/
theorem bcast_scalar {α : Type} (x : S_.Idx → α) (i : S4096x4096.Idx) :
    broadcastInDim S4096x4096 ![] bcast_S_S4096x4096 x i = x ix0 := by
  unfold broadcastInDim
  exact congrArg x (eq_ix0 _)

/-- The sum of the logarithms: zero plus the double sum over rows and columns. -/
theorem logsum_sum (L : FVec Ideal S4096x4096 .f32) :
    logsum (F := Ideal) L ix0 = 0 + ∑ r : Fin 4096, ∑ c : Fin 4096, Ideal.log (L (ix2 r c)) := by
  refine (Ideal.hostReduceAdd_total reducesTo_S4096x4096_S_d0_1 (fun b => b.elim0) (Host.log L)
    (Ideal.ofBits .f32 0x00000000#32) ix0).trans ?_
  rw [Ideal.ofBits_zero_f32, sum_idx2]
  exact congrArg (0 + ·) (Finset.sum_congr rfl fun r _ => Finset.sum_congr rfl fun c _ => rfl)

/-- The quadratic form: zero plus the double sum, over rows `r` and columns `c`, of the `(r, c)` entry
    of the product `(x̂ − W) · Hn` — the sum over `k` of `(x̂ − W) (r, k) · Hn (k, c)` — times
    `(x̂ − W) (r, c)`. -/
theorem quad_sum (W Xh H : FVec Ideal S4096x4096 .f32) :
    quad (F := Ideal) W Xh H ix0
      = 0 + ∑ r : Fin 4096, ∑ c : Fin 4096,
          (∑ k : Fin 4096, (Xh (ix2 r k) - W (ix2 r k)) * hn (F := Ideal) H (ix2 k c)) * (Xh (ix2 r c) - W (ix2 r c)) := by
  refine (Ideal.hostReduceAdd_total reducesTo_S4096x4096_S_d0_1 (fun b => b.elim0)
    _ (Ideal.ofBits .f32 0x00000000#32) ix0).trans ?_
  rw [Ideal.ofBits_zero_f32, sum_idx2]
  refine congrArg (0 + ·) (Finset.sum_congr rfl fun r _ => Finset.sum_congr rfl fun c _ => ?_)
  refine congrArg (· * (Xh (ix2 r c) - W (ix2 r c))) ?_
  exact Cert.RowsProduct.dotGeneral_rows_apply dot_S4096x4096_S4096x4096_S4096x4096_1_0_0_1_n_n none .single rfl rfl
    (fun _ _ => rfl) (fun _ _ => rfl) (fun _ _ => rfl) (fun _ _ => rfl) (diff (F := Ideal) W Xh) (hn (F := Ideal) H) r c

/-- The normalised matrix at an entry: on a positive trace the entry over the trace times `2⁻¹²`,
    otherwise the entry. -/
theorem hn_apply (H : FVec Ideal S4096x4096 .f32) (i : S4096x4096.Idx) :
    hn (F := Ideal) H i
      = Scalar.select (pos (F := Ideal) H ix0)
          (Ideal.div (H i) (trace (F := Ideal) H ix0) * Ideal.ofBits .f32 0x39800000#32) (H i) := by
  show Scalar.select (broadcastInDim S4096x4096 ![] bcast_S_S4096x4096 (pos (F := Ideal) H) i)
      (Ideal.div (H i) (broadcastInDim S4096x4096 ![] bcast_S_S4096x4096 (trace (F := Ideal) H) i)
        * broadcastInDim S4096x4096 ![] bcast_S_S4096x4096 (constant (F := Ideal) S_ .f32 0x39800000#32) i) (H i) = _
  rw [bcast_scalar, bcast_scalar, bcast_scalar]
  rfl

/-- A finite sum of reals, taken in the extended reals, is a real. -/
theorem sum_real {ι : Type} (s : Finset ι) (f : ι → EReal) (hf : ∀ i ∈ s, ∃ r : ℝ, f i = (r : EReal)) :
    ∃ t : ℝ, ∑ i ∈ s, f i = (t : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih fun i hi => hf i (Finset.mem_insert_of_mem hi)
    exact ⟨r + t, by rw [Finset.sum_insert ha, hr, ht, EReal.coe_add]⟩

/-- The trace of a matrix of reals is a real: it is zero plus a finite sum whose every summand is an
    entry of the matrix or zero. -/
theorem trace_real (H : FVec Ideal S4096x4096 .f32) (hH : ∀ i, ∃ r : ℝ, H i = (r : EReal)) :
    ∃ t : ℝ, trace (F := Ideal) H ix0 = (t : EReal) := by
  obtain ⟨t, ht⟩ := sum_real Finset.univ
    (select
      (cmpi .eq (addi (iotaInDim S4096x4096 32 0) (broadcastInDim S4096x4096 ![] bcast_S_S4096x4096 (constantI S_ 32 0#32)))
        (iotaInDim S4096x4096 32 1))
      H (broadcastInDim S4096x4096 ![] bcast_S_S4096x4096 (constant (F := Ideal) S_ .f32 0x00000000#32)))
    (fun i _ => by
      rw [ValueIdx.select_apply]
      rcases BitVec.eq_zero_or_eq_one
        (cmpi .eq (addi (iotaInDim S4096x4096 32 0) (broadcastInDim S4096x4096 ![] bcast_S_S4096x4096 (constantI S_ 32 0#32)))
          (iotaInDim S4096x4096 32 1) i) with hb | hb
      · rw [hb, select_zero, bcast_scalar]
        exact ⟨0, Ideal.ofBits_zero_f32⟩
      · rw [hb, select_one]
        exact hH i)
  refine ⟨t, ?_⟩
  refine (Ideal.hostReduceAdd_total reducesTo_S4096x4096_S_d0_1 (fun b => b.elim0) _
    (Ideal.ofBits .f32 0x00000000#32) ix0).trans ?_
  rw [Ideal.ofBits_zero_f32, ht, zero_add]

/-- The trace's sign test is set exactly when the trace is above zero. -/
theorem pos_iff (H : FVec Ideal S4096x4096 .f32) :
    pos (F := Ideal) H ix0 = 1#1 ↔ 0 < trace (F := Ideal) H ix0 := by
  show BitVec.ofBool (decide (Ideal.ofBits .f32 0x00000000#32 < trace (F := Ideal) H ix0)) = 1#1 ↔ _
  rw [Ideal.ofBits_zero_f32]
  constructor
  · intro hb
    by_contra hn
    rw [decide_eq_false hn] at hb
    exact absurd hb (by decide)
  · intro hp
    rw [decide_eq_true hp]
    rfl

end Cert.ReferenceIdeal.RefRead

end
-- ==== Proof.Join.lean ====
/-
  The two programs' numbers, joined, for real input arrays.  The kernel side: the form of the difference array
  d = x̂ − w against the weight array, times the factor (2⁻¹² over the trace when the trace is positive, else one).
  The reference side: zero plus the same double sum with the normalised weights inside.  With every input entry a
  real, the trace is a real, and the law of the finite sums applies.  The logarithm sums agree as they stand.
-/
import proofs.«166908_j73950746902747_2_alg».proof.Proof.Rows
import proofs.«166908_j73950746902747_2_alg».proof.Proof.Law
import proofs.«166908_j73950746902747_2_alg».proof.Proof.RefRead

noncomputable section

open scoped BigOperators

namespace Cert.Join

open Idealize.ShloMosaic Idealize.ShloMosaic.ValueIdx
open Cert.KernelIdeal Cert.KernelIdeal.Gen

/-- The kernel's form times its factor is the reference's quadratic stage. -/
theorem quad_join (W Xh H : FVec Ideal S4096x4096 .f32)
    (hW : ∀ i, ∃ r : ℝ, W i = (r : EReal)) (hX : ∀ i, ∃ r : ℝ, Xh i = (r : EReal)) (hH : ∀ i, ∃ r : ℝ, H i = (r : EReal)) :
    Cert.KernelIdeal.Rows.form0 (subf Xh W) (truncf .bf16 H bitsLt_bf16_f32)
        * Scalar.select (Cert.ReferenceIdeal.RefRun.pos (F := Ideal) H ix0)
            (Ideal.div ((((1 : ℝ) / 4096 : ℝ)) : EReal) (Cert.ReferenceIdeal.RefRun.trace (F := Ideal) H ix0)) 1
      = Cert.ReferenceIdeal.RefRun.quad (F := Ideal) W Xh H ix0 := by
  choose w hw using hW
  choose x hx using hX
  choose h hh using hH
  obtain ⟨t, ht⟩ := Cert.ReferenceIdeal.RefRead.trace_real H fun i => ⟨h i, hh i⟩
  have hb : Cert.ReferenceIdeal.RefRun.pos (F := Ideal) H ix0 = 1#1 ↔ 0 < t := by
    rw [Cert.ReferenceIdeal.RefRead.pos_iff, ht]; exact EReal.coe_pos
  rw [Cert.ReferenceIdeal.RefRead.quad_sum]
  unfold Cert.KernelIdeal.Rows.form0
  simp only [Cert.ReferenceIdeal.RefRead.hn_apply, subf_apply, truncf_apply, ht, hw, hx, hh, Cert.Algebra.scale_f32]
  exact Cert.Law.form_law (fun r k => w (ix2 r k)) (fun r k => x (ix2 r k)) (fun r k => h (ix2 r k)) t _ hb

/-- The kernel's logarithm form is the reference's logarithm stage. -/
theorem log_join (L : FVec Ideal S4096x4096 .f32) :
    Cert.KernelIdeal.Rows.form1 L = Cert.ReferenceIdeal.RefRun.logsum (F := Ideal) L ix0 := by
  rw [Cert.ReferenceIdeal.RefRead.logsum_sum, zero_add]
  rfl

end Cert.Join

end
-- ==== Proof.Finite.lean ====
import proofs.«166908_j73950746902747_2_alg».proof.Defs
import proofs.«166908_j73950746902747_2_alg».proof.Proof.Gen.KernelIdeal
import proofs.«166908_j73950746902747_2_alg».proof.Proof.Gen.Pre_finite_inputs
import Idealize.ShloMosaic.Lib.ReduceAll
import Idealize.ShloMosaic.Lib.ValueIdx

noncomputable section

/-!
  Finiteness of the inputs. The precondition evaluates, for each of the five float arguments x, the
  conjunction over all indices of |x i| < +∞, and asks that the conjunction of the five results be 1.
  Over the extended reals |x| = max x (-x) is ⊤ at both ⊥ and ⊤, so |x| < ⊤ holds exactly at the real
  numbers; hence under the precondition every entry of every argument is (the image of) a real number.
-/

namespace Cert.Proof.Finite

open Idealize.ShloMosaic Idealize.SL.Sem

/-- The scalar shape has exactly one index. -/
theorem subsingleton_scalar_idx : Subsingleton (⟨0, ![]⟩ : Shape).Idx :=
  ⟨fun a b => funext fun d => d.elim0⟩

/-- The f32 pattern with all exponent bits set and an empty significand denotes +∞. -/
theorem ofBits_inf_f32 : Ideal.ofBits .f32 0x7F800000#32 = ⊤ := by
  simp [Ideal.ofBits, Ideal.ieee]

/-- An extended real whose absolute value max x (-x) is strictly below +∞ is a real number:
    at ⊥ and at ⊤ the absolute value is ⊤, which is not below itself. -/
theorem real_of_abs_lt_inf (x : EReal)
    (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- One array: if the conjunction over every index of the bits [ |x i| < +∞ ] (each entry's absolute value
    compared with the +∞ pattern spread to the array's shape, the bits folded by "and" over every axis
    starting from 1) is 1, then each bit is 1, and so every entry of x is a real number. -/
theorem real_of_all {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32)
    (h : Host.reduce IntOp.andi
          (cmpf .olt (Host.absf x)
            (broadcastInDim S ![] hb (constant (F := Ideal) (⟨0, ![]⟩ : Shape) .f32 0x7F800000#32)))
          (constantI (⟨0, ![]⟩ : Shape) 1 1#1) hr hu ValueIdx.ix0 = 1#1)
    (i : S.Idx) : ∃ r : ℝ, x i = (r : EReal) := by
  haveI := subsingleton_scalar_idx
  have e := Host.reduce_andi_all _ _ hr hu ValueIdx.ix0 h i
  exact real_of_abs_lt_inf (x i) e

/-- Under the precondition every entry of each float argument is a real number: arguments 0, 1 and 4
    (the three square matrices the algebra reads), then arguments 2 and 3. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg1) i = (r : EReal))
  ∧ (∀ i, ∃ r : ℝ, m ((c.tc : Thread Cert.KernelIdeal.nD Cert.KernelIdeal.τ).loc Cert.KernelIdeal.main_arg4) i = (r : EReal))
  ∧ (∀ i, ∃ r : ℝ, m ((c.tc : Thread Cert.KernelIdeal.nD Cert.KernelIdeal.τ).loc Cert.KernelIdeal.main_arg2) i = (r : EReal))
  ∧ (∀ i, ∃ r : ℝ, m ((c.tc : Thread Cert.KernelIdeal.nD Cert.KernelIdeal.τ).loc Cert.KernelIdeal.main_arg3) i = (r : EReal)) := by
  have h := congrFun (hpre c) ValueIdx.ix0
  dsimp only [Cert.Pre_finite_inputs.fn, Cert.Pre_finite_inputs.fn_part1] at h
  -- the value is ((((a0 ∧ a1) ∧ a2) ∧ a3) ∧ a4) at the one scalar index, where ak is the conjunction over
  -- argument k's entries: a conjunction of bits is 1 exactly when both are, so peel it from the outside
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_all _ _ _ _ h0 i, fun i => real_of_all _ _ _ _ h1 i, fun i => real_of_all _ _ _ _ h4 i,
    fun i => real_of_all _ _ _ _ h2 i, fun i => real_of_all _ _ _ _ h3 i⟩

end Cert.Proof.Finite

end
-- ==== Proof.Bridge.lean ====
/-
  The kernel program's three results are the reference's three stages of the same arguments.  The last boundary's
  contents at the quadratic result are (corner of the first kernel's array) · factor / 1, at the rate result
  (corner of the second kernel's array) / c, and the loss is 1 · quadratic + rate.  A corner is entry (0,0) plus
  entry (8,0): the two cores' numbers, which add up to the form over all rows of the arrays the region found — the
  difference array and the recast weights for the first kernel, the likelihoods for the second.  Under the
  precondition every input entry is a real, so the kernel's form times its factor is the reference's quadratic
  stage; the logarithm sums agree as they stand; the remaining operations are the same on both sides.
-/
import proofs.«166908_j73950746902747_2_alg».proof.Proof.KernelRun
import proofs.«166908_j73950746902747_2_alg».proof.Proof.ReadBack
import proofs.«166908_j73950746902747_2_alg».proof.Proof.KRead
import proofs.«166908_j73950746902747_2_alg».proof.Proof.Join
import proofs.«166908_j73950746902747_2_alg».proof.Proof.Finite

noncomputable section

namespace Cert.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The corner of the first kernel's result array is the form of the arrays the region found. -/
theorem corner0 (c : Dev nD) :
    ReadBack.corner (F := Ideal) ((dat0 (V5 m ρ) c).arrAt 2 cfg0.N) ix0
      = Rows.form0 (subf (m ((c.tc : Thread nD τ).loc main_arg1)) (m ((c.tc : Thread nD τ).loc main_arg0)))
          (truncf .bf16 (m ((c.tc : Thread nD τ).loc main_arg4)) bitsLt_bf16_f32) := by
  refine (KRead.corner_apply ((dat0 (V5 m ρ) c).arrAt 2 cfg0.N)).trans ?_
  refine (congrArg₂ (fun a b : EReal => a + b) (Final.arr0_apply (V5 m ρ) c (ix2 (0 : Fin 16) (0 : Fin 128)))
    (Final.arr0_apply (V5 m ρ) c (ix2 (8 : Fin 16) (0 : Fin 128)))).trans ?_
  refine (Rows.S0_total (V5 m ρ) c).trans ?_
  rw [ReadBack.entry_v0 m ρ c, ReadBack.entry_v5 m ρ c]

/-- The corner of the second kernel's result array is the logarithm form of the likelihoods. -/
theorem corner1 (c : Dev nD) :
    ReadBack.corner (F := Ideal) ((dat1 (V7 m ρ) c).arrAt 1 cfg1.N) ix0
      = Rows.form1 (m ((c.tc : Thread nD τ).loc main_arg3)) := by
  refine (KRead.corner_apply ((dat1 (V7 m ρ) c).arrAt 1 cfg1.N)).trans ?_
  refine (congrArg₂ (fun a b : EReal => a + b) (Final.arr1_apply (V7 m ρ) c (ix2 (0 : Fin 16) (0 : Fin 128)))
    (Final.arr1_apply (V7 m ρ) c (ix2 (8 : Fin 16) (0 : Fin 128)))).trans ?_
  refine (Rows.S1_total (V7 m ρ) c).trans ?_
  rw [ReadBack.entry_arg3 m ρ c]

/-- The kernel's factor at its one index: the flag is the reference's, the trace the reference's. -/
theorem factor0 (H : FVec Ideal S4096x4096 .f32) :
    ReadBack.kfactor (F := Ideal) H ix0
      = Scalar.select (Cert.ReferenceIdeal.RefRun.pos (F := Ideal) H ix0)
          (Ideal.div ((((1 : ℝ) / 4096 : ℝ)) : EReal) (Cert.ReferenceIdeal.RefRun.trace (F := Ideal) H ix0)) 1 := by
  refine (KRead.factor_apply (ReadBack.ktrace (F := Ideal) H)).trans ?_
  rw [show ReadBack.ktrace (F := Ideal) H = Cert.ReferenceIdeal.RefRun.trace (F := Ideal) H from KRead.trace_eq H]
  exact congrArg (fun b => Scalar.select b (Ideal.div ((((1 : ℝ) / 4096 : ℝ)) : EReal)
    (Cert.ReferenceIdeal.RefRun.trace (F := Ideal) H ix0)) (1 : EReal))
    (KRead.pos_eq (Cert.ReferenceIdeal.RefRun.trace (F := Ideal) H)).symm

/-- Under the precondition, on every device, the three results are the reference's three stages. -/
theorem results (hpre : Cert.Pre_KernelIdeal m) (c : Dev nD) :
    W9 m ρ c (Proc.devRef .tc main_v22)
        = Cert.ReferenceIdeal.RefRun.loss (F := Ideal) (m ((c.tc : Thread nD τ).loc main_arg0)) (m ((c.tc : Thread nD τ).loc main_arg1))
            (m ((c.tc : Thread nD τ).loc main_arg3)) (m ((c.tc : Thread nD τ).loc main_arg4))
    ∧ W9 m ρ c (Proc.devRef .tc main_v19)
        = Cert.ReferenceIdeal.RefRun.adaptive (F := Ideal) (m ((c.tc : Thread nD τ).loc main_arg0)) (m ((c.tc : Thread nD τ).loc main_arg1))
            (m ((c.tc : Thread nD τ).loc main_arg4))
    ∧ W9 m ρ c (Proc.devRef .tc main_v20)
        = Cert.ReferenceIdeal.RefRun.bpp (F := Ideal) (m ((c.tc : Thread nD τ).loc main_arg3)) := by
  obtain ⟨h0, h1, h4, -, -⟩ := Cert.Proof.Finite.real_of_pre m hpre c
  have e19 : W9 m ρ c (Proc.devRef .tc main_v19)
      = Cert.ReferenceIdeal.RefRun.adaptive (F := Ideal) (m ((c.tc : Thread nD τ).loc main_arg0)) (m ((c.tc : Thread nD τ).loc main_arg1))
          (m ((c.tc : Thread nD τ).loc main_arg4)) := by
    refine (ReadBack.res_v19 m ρ c).trans ?_
    unfold Cert.ReferenceIdeal.RefRun.adaptive
    refine congrArg (fun z => Host.divf z (constant (F := Ideal) S_ .f32 0x3F800000#32)) ?_
    funext j
    obtain rfl := eq_ix0 j
    refine (mulf_apply _ _ ix0).trans ?_
    rw [corner0 m ρ c, factor0]
    exact Cert.Join.quad_join _ _ _ h0 h1 h4
  have e20 : W9 m ρ c (Proc.devRef .tc main_v20)
      = Cert.ReferenceIdeal.RefRun.bpp (F := Ideal) (m ((c.tc : Thread nD τ).loc main_arg3)) := by
    refine (ReadBack.res_v20 m ρ c).trans ?_
    unfold Cert.ReferenceIdeal.RefRun.bpp
    refine congrArg (fun z => Host.divf z (constant (F := Ideal) S_ .f32 0xCB317218#32)) ?_
    funext j
    obtain rfl := eq_ix0 j
    rw [corner1 m ρ c]
    exact Cert.Join.log_join _
  refine ⟨?_, e19, e20⟩
  refine (ReadBack.res_v22 m ρ c).trans ?_
  rw [e19, e20]
  rfl

end Cert.Bridge

end
-- ==== Proof.lean ====
/-
  The certificate.  Both printed kernels' frames are generated; the reference is a straight line of host operations
  whose run gives its frame; the idealization rewrote nothing.  For the equivalence at the ideal values: the kernel
  program's run ends with its three results at the last boundary's contents, which under the precondition are the
  reference's three stages of the same arguments; the reference's run ends with its results at those stages of its
  own arguments, which agree with the kernel's.
-/
import proofs.«166908_j73950746902747_2_alg».proof.Defs
import proofs.«166908_j73950746902747_2_alg».proof.Proof.Gen.Kernel
import proofs.«166908_j73950746902747_2_alg».proof.Proof.Gen.Kernel.Skeleton
import proofs.«166908_j73950746902747_2_alg».proof.Proof.Gen.Kernel.Launch
import proofs.«166908_j73950746902747_2_alg».proof.Proof.Gen.Kernel.Points
import proofs.«166908_j73950746902747_2_alg».proof.Proof.Gen.Kernel.Frame
import proofs.«166908_j73950746902747_2_alg».proof.Proof.Gen.KernelIdeal
import proofs.«166908_j73950746902747_2_alg».proof.Proof.Gen.KernelIdeal.Skeleton
import proofs.«166908_j73950746902747_2_alg».proof.Proof.Gen.KernelIdeal.Launch
import proofs.«166908_j73950746902747_2_alg».proof.Proof.Gen.KernelIdeal.Points
import proofs.«166908_j73950746902747_2_alg».proof.Proof.Gen.KernelIdeal.Frame
import proofs.«166908_j73950746902747_2_alg».proof.Proof.Gen.ReferenceIdeal
import proofs.«166908_j73950746902747_2_alg».proof.Proof.Gen.Pre_finite_inputs
import proofs.«166908_j73950746902747_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2)
    (Cert.ReferenceIdeal.RefRun.run (F := Ideal) m ρ)

theorem preserves : Cert.preserves_Kernel_KernelIdeal := trivial

/-- Equal results at the ideal values, from memories that agree on the arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v22),
    fun c => Cert.KernelIdeal.Gen.W9 m ρ c (Proc.devRef .tc Cert.KernelIdeal.main_v19),
    fun c => Cert.KernelIdeal.Gen.W9 m ρ c (Proc.devRef .tc Cert.KernelIdeal.main_v20),
    Cert.KernelIdeal.Run.run (F := Ideal) m ρ, ?_⟩
  refine (θ_run Cert.ReferenceIdeal.defs _ _).mono (fun _ h c => ?_)
    (Cert.ReferenceIdeal.RefRun.run (F := Ideal) m' ρ')
  obtain ⟨h16, h11, h14, hargs⟩ := h c
  obtain ⟨a0, a1, a2, a3, a4⟩ := hagree c
  obtain ⟨r22, r19, r20⟩ := Cert.Bridge.results m ρ hpre c
  refine ⟨h16.trans ?_, h11.trans ?_, h14.trans ?_, hargs⟩
  · rw [a0, a1, a3, a4]; exact r22.symm
  · rw [a0, a1, a4]; exact r19.symm
  · rw [a3]; exact r20.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
